-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x1000 : Shape := ⟨3, ![512, 256, 1000]⟩
abbrev S3x1000 : Shape := ⟨2, ![3, 1000]⟩
abbrev S128x768 : Shape := ⟨2, ![128, 768]⟩
abbrev S128 : Shape := ⟨1, ![128]⟩
abbrev S_ : Shape := ⟨0, ![]⟩

class Facts : Prop where
  bcast_S_S512x256x1000 : S_.BroadcastsInDim S512x256x1000 (![] : Fin 0 → Fin S512x256x1000.rank)
  reducesTo_S512x256x1000_S_d0_1_2 : S512x256x1000.ReducesTo [0, 1, 2] S_
  h_S_ : 0 < S_.numel
  bcast_S_S3x1000 : S_.BroadcastsInDim S3x1000 (![] : Fin 0 → Fin S3x1000.rank)
  reducesTo_S3x1000_S_d0_1 : S3x1000.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S512x256x1000 .f32) (main_arg1 : FVec F S3x1000 .f32) (main_arg2 : FVec F S128x768 .f32) (main_arg3 : FVec F S128 .f32) : IVec S_ 1 :=
  let main_v0 : FVec F S512x256x1000 .f32 := Host.absf main_arg0
  let main_cst : FVec F S_ .f32 := constant S_ .f32 0x7F800000#32
  let main_v1 : FVec F S512x256x1000 .f32 := broadcastInDim S512x256x1000 ![] bcast_S_S512x256x1000 main_cst
  let main_v2 : IVec S512x256x1000 1 := cmpf .olt main_v0 main_v1
  let main_c : IVec S_ 1 := constantI S_ 1 1#1
  let main_v3 : IVec S_ 1 := (fun x v => Host.reduce IntOp.andi x v reducesTo_S512x256x1000_S_d0_1_2 h_S_) main_v2 main_c
  let main_v4 : FVec F S3x1000 .f32 := Host.absf main_arg1
  let main_cst_0 : FVec F S_ .f32 := constant S_ .f32 0x7F800000#32
  let main_v5 : FVec F S3x1000 .f32 := broadcastInDim S3x1000 ![] bcast_S_S3x1000 main_cst_0
  let main_v6 : IVec S3x1000 1 := cmpf .olt main_v4 main_v5
  let main_c_1 : IVec S_ 1 := constantI S_ 1 1#1
  let main_v7 : IVec S_ 1 := (fun x v => Host.reduce IntOp.andi x v reducesTo_S3x1000_S_d0_1 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S512x256x1000 : Shape := ⟨3, ![512, 256, 1000]⟩
abbrev S3x1000 : Shape := ⟨2, ![3, 1000]⟩
abbrev S128x768 : Shape := ⟨2, ![128, 768]⟩
abbrev S128 : Shape := ⟨1, ![128]⟩
abbrev S128x256x3 : Shape := ⟨3, ![128, 256, 3]⟩
abbrev S3x256x128 : Shape := ⟨3, ![3, 256, 128]⟩
abbrev S1x128 : Shape := ⟨2, ![1, 128]⟩
abbrev S512x128 : Shape := ⟨2, ![512, 128]⟩
abbrev S16x256x1000 : Shape := ⟨3, ![16, 256, 1000]⟩
abbrev S16x128 : Shape := ⟨2, ![16, 128]⟩
abbrev S1x1000 : Shape := ⟨2, ![1, 1000]⟩
abbrev S1000 : Shape := ⟨1, ![1000]⟩
abbrev S1x1x1000 : Shape := ⟨3, ![1, 1, 1000]⟩
abbrev S16x256 : Shape := ⟨2, ![16, 256]⟩
abbrev S1x256x128 : Shape := ⟨3, ![1, 256, 128]⟩
abbrev S256x128 : Shape := ⟨2, ![256, 128]⟩

abbrev nBuf : Space → Nat
  | .hbm => 8
  | .vmem => 7
  | .smem => 0
  | _ => 0

abbrev bufTy : (tb : Table) → Fin (tcTables nBuf tb) → BufTy
  | .hbm, ⟨0, _⟩ => ⟨S512x256x1000, .f32⟩
  | .hbm, ⟨1, _⟩ => ⟨S3x1000, .f32⟩
  | .hbm, ⟨2, _⟩ => ⟨S128x768, .f32⟩
  | .hbm, ⟨3, _⟩ => ⟨S128, .f32⟩
  | .hbm, ⟨4, _⟩ => ⟨S128x256x3, .f32⟩
  | .hbm, ⟨5, _⟩ => ⟨S3x256x128, .f32⟩
  | .hbm, ⟨6, _⟩ => ⟨S1x128, .f32⟩
  | .hbm, ⟨7, _⟩ => ⟨S512x128, .f32⟩
  | .local _ .vmem, ⟨0, _⟩ => ⟨S16x256x1000, .f32⟩
  | .local _ .vmem, ⟨1, _⟩ => ⟨S16x256x1000, .f32⟩
  | .local _ .vmem, ⟨2, _⟩ => ⟨S3x1000, .f32⟩
  | .local _ .vmem, ⟨3, _⟩ => ⟨S3x256x128, .f32⟩
  | .local _ .vmem, ⟨4, _⟩ => ⟨S1x128, .f32⟩
  | .local _ .vmem, ⟨5, _⟩ => ⟨S16x128, .f32⟩
  | .local _ .vmem, ⟨6, _⟩ => ⟨S16x128, .f32⟩
  | _, _ => ⟨S512x256x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x768_S128x256x3 : S128x768.ShapeCasts S128x256x3
  transposes_S128x256x3_S3x256x128_2_1_0 : S128x256x3.Transposes [2, 1, 0] S3x256x128
  shapeCasts_S128_S1x128 : S128.ShapeCasts S1x128
  inb_S16x256x1000_S16x256x1000_0_0_0 : ∀ a, (![0, 0, 0] : Fin 3 → Nat) a + S16x256x1000.size a ≤ S16x256x1000.size a
  h_S16x256x1000 : 0 < S16x256x1000.numel
  inb_S3x1000_S3x1000_0_0 : ∀ a, (![0, 0] : Fin 2 → Nat) a + S3x1000.size a ≤ S3x1000.size a
  h_S3x1000 : 0 < S3x1000.numel
  inb_S3x256x128_S3x256x128_0_0_0 : ∀ a, (![0, 0, 0] : Fin 3 → Nat) a + S3x256x128.size a ≤ S3x256x128.size a
  h_S3x256x128 : 0 < S3x256x128.numel
  shapeCasts_S3x256x128_S3x256x128 : S3x256x128.ShapeCasts S3x256x128
  slices_S3x1000_o0_0_S1x1000 : S3x1000.Slices ![0, 0] S1x1000
  shapeCasts_S1x1000_S1000 : S1x1000.ShapeCasts S1000
  shapeCasts_S1000_S1x1x1000 : S1000.ShapeCasts S1x1x1000
  broadcasts_S1x1x1000_S16x256x1000 : S1x1x1000.Broadcasts S16x256x1000
  reduces_S16x256x1000_S16x256 : S16x256x1000.Reduces [2] S16x256
  slices_S3x256x128_o0_0_0_S1x256x128 : S3x256x128.Slices ![0, 0, 0] S1x256x128
  shapeCasts_S1x256x128_S256x128 : S1x256x128.ShapeCasts S256x128
  slices_S3x1000_o1_0_S1x1000 : S3x1000.Slices ![1, 0] S1x1000
  slices_S3x256x128_o1_0_0_S1x256x128 : S3x256x128.Slices ![1, 0, 0] S1x256x128
  slices_S3x1000_o2_0_S1x1000 : S3x1000.Slices ![2, 0] S1x1000
  slices_S3x256x128_o2_0_0_S1x256x128 : S3x256x128.Slices ![2, 0, 0] S1x256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  dot_S16x256_S256x128_S16x128_1_0_0_1_n_n_wf : DotDims.WF S16x256 S256x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1000.size a ≤ S512x256x1000.size a
  hwx0_0 : ∀ i : grid0.Coords, EltTy.bits .f32 = 32 ∨ (Rect.block (s := S512x256x1000) S16x256x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1000.size a ≤ S3x1000.size a
  hwx0_1 : ∀ i : grid0.Coords, EltTy.bits .f32 = 32 ∨ (Rect.block (s := S3x1000) S3x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x128.size a ≤ S3x256x128.size a
  hwx0_2 : ∀ i : grid0.Coords, EltTy.bits .f32 = 32 ∨ (Rect.block (s := S3x256x128) S3x256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S512x128.size a
  hwx0_4 : ∀ i : grid0.Coords, EltTy.bits .f32 = 32 ∨ (Rect.block (s := S512x128) S16x128.size (cc0_transform_4 i) (hinb0_4 i)).WholeWords (EltTy.packing .f32)

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf

abbrev win0_0 : Pipeline.Window sig grid0 :=
  Pipeline.Window.ofSpec (Memref.whole main_arg0) S16x256x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x256x1000 : Shape := ⟨3, ![512, 256, 1000]⟩
abbrev S3x1000 : Shape := ⟨2, ![3, 1000]⟩
abbrev S128x768 : Shape := ⟨2, ![128, 768]⟩
abbrev S128 : Shape := ⟨1, ![128]⟩
abbrev S512x256x3 : Shape := ⟨3, ![512, 256, 3]⟩
abbrev S512x768 : Shape := ⟨2, ![512, 768]⟩
abbrev S768x128 : Shape := ⟨2, ![768, 128]⟩
abbrev S512x128 : Shape := ⟨2, ![512, 128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S512x256x1000, .f32⟩
  | .hbm, ⟨1, _⟩ => ⟨S3x1000, .f32⟩
  | .hbm, ⟨2, _⟩ => ⟨S128x768, .f32⟩
  | .hbm, ⟨3, _⟩ => ⟨S128, .f32⟩
  | .hbm, ⟨4, _⟩ => ⟨S512x256x3, .f32⟩
  | .hbm, ⟨5, _⟩ => ⟨S512x768, .f32⟩
  | .hbm, ⟨6, _⟩ => ⟨S768x128, .f32⟩
  | .hbm, ⟨7, _⟩ => ⟨S512x128, .f32⟩
  | .hbm, ⟨8, _⟩ => ⟨S1x128, .f32⟩
  | .hbm, ⟨9, _⟩ => ⟨S512x128, .f32⟩
  | .hbm, ⟨10, _⟩ => ⟨S512x128, .f32⟩
  | _, _ => ⟨S512x256x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  shapeCasts_S512x256x3_S512x768 : S512x256x3.ShapeCasts S512x768
  transposes_S128x768_S768x128_1_0 : S128x768.Transposes [1, 0] S768x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  dot_S512x256x1000_S3x1000_S512x256x3_2_1_01_0_n_n_wf : DotDims.WF S512x256x1000 S3x1000 S512x256x3 [2] [1] [0, 1] [0] [] []
  dot_S512x768_S768x128_S512x128_1_0_0_1_n_n_wf : DotDims.WF S512x768 S768x128 S512x128 [1] [0] [0] [1] [] []

variable [Facts₀]

def dot_S512x256x1000_S3x1000_S512x256x3_2_1_01_0_n_n : DotDims S512x256x1000 S3x1000 S512x256x3 where
  lhsContracting := [2]
  rhsContracting := [1]
  lhsNonContracting := [0, 1]
  rhsNonContracting := [0]
  lhsBatch := []
  rhsBatch := []
  wf := dot_S512x256x1000_S3x1000_S512x256x3_2_1_01_0_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf

class Facts : Prop extends Facts₀ where

variable [Facts]
-- ==== Proof.Spec.lean ====
/-
  The function both programs compute, index by index over the extended reals, and the one regrouping law
  that joins the two ways of summing it.

  Inputs: x : [512, 256, 1000], W_emb : [3, 1000], W_fc2 : [128, 768], b_fc2 : [128].
  Every (sample b, kernel k) row of x is embedded into three channels,
      emb(b, k, e) = Σ_l x(b, k, l) · W_emb(e, l),
  the 256 × 3 embeddings of a sample are laid out kernel-major, channel-minor (position 3k + e of 768), and a dense
  layer with bias is applied:
      out(b, o) = Σ_{j < 768} emb(b, j / 3, j % 3) · W_fc2(o, j) + b_fc2(o).
  The kernel never forms the 768-long row: per channel e it contracts the 256 kernels against the slab
  W_fc2(o, 3k + e) and adds the three channel results. The two are the same sum, grouped by channel
  (`sum_cols`): only commutativity and associativity of addition are used, which hold on every extended real,
  so no finiteness of the inputs is needed.
-/
import Idealize.ShloMosaic.PureOps.Ideal
import Idealize.ShloMosaic.Lib.ValueIdx
import Mathlib.Algebra.BigOperators.Fin
import Mathlib.Logic.Equiv.Fin.Basic

noncomputable section

open scoped BigOperators

namespace Cert.EmbedDense

open Idealize.ShloMosaic Idealize.ShloMosaic.ValueIdx

/-- Position of (kernel `k`, channel `e`) in a sample's flattened row of 768 embeddings: kernel-major, channel-minor. -/
def col (k : Fin 256) (e : Fin 3) : Fin 768 := ⟨3 * k.val + e.val, by omega⟩

theorem col_val (k : Fin 256) (e : Fin 3) : (col k e).val = 3 * k.val + e.val := rfl

/-- A sum over the 768 flattened positions is the sum over the three channels of the sums over the 256 kernels. -/
theorem sum_cols {M : Type*} [AddCommMonoid M] (g : Fin 768 → M) :
    ∑ j : Fin 768, g j = ∑ e : Fin 3, ∑ k : Fin 256, g (col k e) := by
  rw [Finset.sum_comm, ← Equiv.sum_comp (finProdFinEquiv : Fin 256 × Fin 3 ≃ Fin (256 * 3)) g, Fintype.sum_prod_type]
  refine Finset.sum_congr rfl fun k _ => Finset.sum_congr rfl fun e _ => congrArg g (Fin.ext ?_)
  show e.val + 3 * k.val = 3 * k.val + e.val
  omega

/-- The embedding of row (b, k) of `x` into channel `e`. -/
def emb (x : (⟨3, ![512, 256, 1000]⟩ : Shape).Idx → EReal) (w : (⟨2, ![3, 1000]⟩ : Shape).Idx → EReal)
    (b : Fin 512) (k : Fin 256) (e : Fin 3) : EReal :=
  ∑ l : Fin 1000, x (ix3 b k l) * w (ix2 e l)

/-- The result at (sample `b`, output `o`): channel by channel, the embeddings against the matching columns of the
    dense weight, plus the bias. -/
def outAt (x : (⟨3, ![512, 256, 1000]⟩ : Shape).Idx → EReal) (w : (⟨2, ![3, 1000]⟩ : Shape).Idx → EReal)
    (wf : (⟨2, ![128, 768]⟩ : Shape).Idx → EReal) (bias : (⟨1, ![128]⟩ : Shape).Idx → EReal)
    (b : Fin 512) (o : Fin 128) : EReal :=
  (∑ e : Fin 3, ∑ k : Fin 256, emb x w b k e * wf (ix2 o (col k e))) + bias (ix1 o)

/-- The whole result array as one function of the four argument arrays. -/
def out (x : (⟨3, ![512, 256, 1000]⟩ : Shape).Idx → EReal) (w : (⟨2, ![3, 1000]⟩ : Shape).Idx → EReal)
    (wf : (⟨2, ![128, 768]⟩ : Shape).Idx → EReal) (bias : (⟨1, ![128]⟩ : Shape).Idx → EReal) :
    (⟨2, ![512, 128]⟩ : Shape).Idx → EReal :=
  fun i => outAt x w wf bias (i 0) (i 1)

theorem out_ix2 (x : (⟨3, ![512, 256, 1000]⟩ : Shape).Idx → EReal) (w : (⟨2, ![3, 1000]⟩ : Shape).Idx → EReal)
    (wf : (⟨2, ![128, 768]⟩ : Shape).Idx → EReal) (bias : (⟨1, ![128]⟩ : Shape).Idx → EReal) (b : Fin 512) (o : Fin 128) :
    out x w wf bias (ix2 b o) = outAt x w wf bias b o := rfl

end Cert.EmbedDense

end
-- ==== Proof.RefIsSpec.lean ====
/-
  The reference program's result, read one operation at a time, is the specification `out`.

  The reference contracts x against W_emb over l (giving [512, 256, 3]), flattens the last two axes to 768
  (row-major: position j holds kernel j / 3, channel j % 3), contracts that against the transposed dense weight over
  the 768 positions, and adds the bias broadcast over the samples. Regrouping the 768 positions by channel
  (`sum_cols`) and reading each index map at position 3k + e gives `outAt`.
-/
import proofs.«113658_j13022340841686_2_alg».proof.Proof.Gen.ReferenceIdeal.Read
import proofs.«113658_j13022340841686_2_alg».proof.Proof.Spec

noncomputable section

open scoped BigOperators

namespace Cert.EmbedDense

open Idealize.ShloMosaic Idealize.ShloMosaic.ValueIdx Cert.ReferenceIdeal Cert.ReferenceIdeal.Read

/-- Row `b`, flattened position 3k + e of the reshaped embeddings comes from (b, k, e); its contraction index `l` reads
    x at (b, k, l) … -/
theorem lhs_emb_idx (b : Fin 512) (o : Fin 128) (k : Fin 256) (e : Fin 3) (l : Fin 1000) :
    lidx_main_v0 (idx_main_v1 (lidx_main_v3 (ix2 b o) (col k e))) l = ix3 b k l := by
  funext a; apply Fin.ext
  have hb := b.isLt; have hk := k.isLt; have he := e.isLt
  match a with
  | ⟨0, _⟩ => show (b.val * 768 + (3 * k.val + e.val)) / 768 = b.val; omega
  | ⟨1, _⟩ => show (b.val * 768 + (3 * k.val + e.val)) / 3 % 256 = k.val; omega
  | ⟨2, _⟩ => rfl

/-- … and W_emb at (e, l). -/
theorem rhs_emb_idx (b : Fin 512) (o : Fin 128) (k : Fin 256) (e : Fin 3) (l : Fin 1000) :
    ridx_main_v0 (idx_main_v1 (lidx_main_v3 (ix2 b o) (col k e))) l = ix2 e l := by
  funext a; apply Fin.ext
  have hb := b.isLt; have hk := k.isLt; have he := e.isLt
  match a with
  | ⟨0, _⟩ => show (b.val * 768 + (3 * k.val + e.val)) % 3 = e.val; omega
  | ⟨1, _⟩ => rfl

/-- The transposed dense weight at (3k + e, o) is W_fc2 at (o, 3k + e). -/
theorem dense_idx (b : Fin 512) (o : Fin 128) (j : Fin 768) :
    idx_main_v2 (ridx_main_v3 (ix2 b o) j) = ix2 o j := by
  funext a; apply Fin.ext
  match a with
  | ⟨0, _⟩ => rfl
  | ⟨1, _⟩ => rfl

/-- The bias broadcast over the samples reads b_fc2 at `o`. -/
theorem bias_idx (b : Fin 512) (o : Fin 128) : idx_main_v4 (idx_main_v5 (ix2 b o)) = ix1 o := by
  funext a; apply Fin.ext
  match a with
  | ⟨0, _⟩ => rfl

/-- The reference's result array is `out` of its four arguments. -/
theorem reference_eq_out (x0 : (⟨S512x256x1000, .f32⟩ : BufTy).Contents (Elt Ideal)) (x1 : (⟨S3x1000, .f32⟩ : BufTy).Contents (Elt Ideal))
    (x2 : (⟨S128x768, .f32⟩ : BufTy).Contents (Elt Ideal)) (x3 : (⟨S128, .f32⟩ : BufTy).Contents (Elt Ideal)) :
    val_main_v6 (F := Ideal) x0 x1 x2 x3 = out x0 x1 x2 x3 := by
  funext i
  obtain ⟨b, o, rfl⟩ : ∃ (b : Fin 512) (o : Fin 128), i = ix2 b o := ⟨i 0, i 1, eq_ix2 i⟩
  rw [out_ix2, val_main_v6_apply, val_main_v3_apply, val_main_v5_apply, val_main_v4_apply, sum_cols, bias_idx]
  unfold outAt
  refine congrArg₂ (· + ·) (Finset.sum_congr rfl fun e _ => Finset.sum_congr rfl fun k _ => ?_) rfl
  rw [val_main_v1_apply, val_main_v0_apply, val_main_v2_apply, dense_idx]
  unfold emb
  refine congrArg₂ (· * ·) (Finset.sum_congr rfl fun l _ => ?_) rfl
  rw [lhs_emb_idx, rhs_emb_idx]

end Cert.EmbedDense

end
-- ==== Proof.BodyAt.lean ====
/-
  What the kernel body computes at one entry of its [16, 128] output block, from the four blocks it loads:
  a [16, 256, 1000] block of x, all of W_emb [3, 1000], the re-laid dense weight [3, 256, 128] and the bias row [1, 128].

  Per channel e the body multiplies the x block by row e of W_emb broadcast over the block, sums over the last axis
  (giving the [16, 256] embeddings of the block's samples in channel e), and contracts them over the 256 kernels with
  slab e of the re-laid weight; the three channel results are added onto a zero block in turn, then the bias row,
  broadcast over the 16 samples, is added. Read at (p, o) this is
      Σ_e Σ_k (Σ_l xb(p, k, l) · w(e, l)) · w2(e, k, o) + bias(0, o).
-/
import proofs.«113658_j13022340841686_2_alg».proof.Proof.Gen.KernelIdeal.Skeleton
import proofs.«113658_j13022340841686_2_alg».proof.Proof.Spec
import Idealize.ShloMosaic.Lib.Pipeline.Value
import Idealize.ShloMosaic.Lib.ValueLayout
import Idealize.ShloMosaic.PureOps.Ideal.Laws

noncomputable section

open scoped BigOperators

namespace Cert.EmbedDense

open Idealize.ShloMosaic Idealize.ShloMosaic.ValueIdx Cert.KernelIdeal Cert.KernelIdeal.Gen

/-- Row `e` of W_emb, cut out, flattened, given two leading unit axes and broadcast over a [16, 256, 1000] block, reads
    W_emb(e, l) at (p, k, l). -/
theorem chan_row (w : FVec Ideal S3x1000 .f32) (e : Nat) (he : e < 3)
    (hs : S3x1000.Slices ![e, 0] S1x1000) (h1 : S1x1000.ShapeCasts S1000) (h2 : S1000.ShapeCasts S1x1x1000)
    (h3 : S1x1x1000.Broadcasts S16x256x1000) (p : Fin 16) (k : Fin 256) (l : Fin 1000) :
    broadcastTo S16x256x1000 (shapeCast S1x1x1000 (shapeCast S1000 (extractStridedSlice S1x1000 ![e, 0] w hs) h1) h2) h3 (ix3 p k l)
      = w (ix2 ⟨e, he⟩ l) := by
  refine (broadcastTo_apply _ h3 (ix3 p k l) (ix3 (0 : Fin 1) (0 : Fin 1) l) fun a => ?_).trans ?_
  · match a with
    | ⟨0, _⟩ => show 0 = if (1 : Nat) = 1 then 0 else p.val; rw [if_pos rfl]
    | ⟨1, _⟩ => show 0 = if (1 : Nat) = 1 then 0 else k.val; rw [if_pos rfl]
    | ⟨2, _⟩ => show l.val = if (1000 : Nat) = 1 then 0 else l.val; rw [if_neg (by decide)]
  refine (shapeCast_apply _ h2 (ix3 (0 : Fin 1) (0 : Fin 1) l) (ix1 l) ?_).trans ?_
  · rw [Shape.rowMajor_val_one, Shape.rowMajor_val_three]
    show l.val = (0 * 1 + 0) * 1000 + l.val
    omega
  refine (shapeCast_1a_a_apply _ h1 l).trans ?_
  exact extractStridedSlice_apply _ w hs (ix2 (0 : Fin 1) l) (ix2 ⟨e, he⟩ l) fun a => by
    match a with
    | ⟨0, _⟩ => show e = e + 0; omega
    | ⟨1, _⟩ => show l.val = 0 + l.val; omega

/-- The sum over the last axis of a [16, 256, 1000] block, read at (p, k), is the sum over l of the block at (p, k, l). -/
theorem lane_sum (src : FVec Ideal S16x256x1000 .f32) (h : S16x256x1000.Reduces [2] S16x256) (hφ : FKind.Formats .f32)
    (hacc : (0x00000000#32 : BitVec (FTy.f32).bits) = FKind.add.neutral .f32 hφ) (p : Fin 16) (k : Fin 256) :
    multiReduction .add [2] S16x256 src 0x00000000#32 h hφ hacc (ix2 p k) = ∑ l : Fin 1000, src (ix3 p k l) := by
  refine (Ideal.multiReduction_add_single src _ h hφ hacc (ix2 p k)).trans ?_
  refine Finset.sum_congr rfl fun l _ => congrArg src ?_
  funext a
  match a with
  | ⟨0, _⟩ => rfl
  | ⟨1, _⟩ => rfl
  | ⟨2, _⟩ => rfl

/-- Slab `e` of the re-laid dense weight, cut out and stripped of its unit axis, reads the weight at (e, k, o). -/
theorem slab_at (w2 : FVec Ideal S3x256x128 .f32) (e : Nat) (he : e < 3) (h0 : S3x256x128.ShapeCasts S3x256x128)
    (hs : S3x256x128.Slices ![e, 0, 0] S1x256x128) (hc : S1x256x128.ShapeCasts S256x128) (k : Fin 256) (o : Fin 128) :
    shapeCast S256x128 (extractStridedSlice S1x256x128 ![e, 0, 0] (shapeCast S3x256x128 w2 h0) hs) hc (ix2 k o)
      = w2 (ix3 ⟨e, he⟩ k o) := by
  refine (shapeCast_1ab_ab_apply _ hc k o).trans ?_
  refine (extractStridedSlice_apply _ _ hs (ix3 (0 : Fin 1) k o) (ix3 ⟨e, he⟩ k o) fun a => ?_).trans ?_
  · match a with
    | ⟨0, _⟩ => show e = e + 0; omega
    | ⟨1, _⟩ => show k.val = 0 + k.val; omega
    | ⟨2, _⟩ => show o.val = 0 + o.val; omega
  exact congrFun (shapeCast_self w2 h0) _

/-! The [16, 256] × [256, 128] product into a zero block, read at (p, o), is the sum over the 256 kernels. -/

theorem mm_lhs0 (i : S16x128.Idx) (q : dot_S16x256_S256x128_S16x128_1_0_0_1_n_n.contr.Idx) :
    (dot_S16x256_S256x128_S16x128_1_0_0_1_n_n.lhsIdx i q 0).val = (i 0).val := by
  unfold DotDims.lhsIdx
  rw [dif_neg (show ¬(0 : Fin S16x256.rank) ∈ dot_S16x256_S256x128_S16x128_1_0_0_1_n_n.lhsBatch by decide),
    dif_pos (show (0 : Fin S16x256.rank) ∈ dot_S16x256_S256x128_S16x128_1_0_0_1_n_n.lhsNonContracting by decide)]
  rfl
theorem mm_lhs1 (i : S16x128.Idx) (q : dot_S16x256_S256x128_S16x128_1_0_0_1_n_n.contr.Idx) :
    (dot_S16x256_S256x128_S16x128_1_0_0_1_n_n.lhsIdx i q 1).val = (q ⟨0, by decide⟩).val :=
  dot_S16x256_S256x128_S16x128_1_0_0_1_n_n.lhsIdx_val_of_single rfl i q
theorem mm_rhs0 (i : S16x128.Idx) (q : dot_S16x256_S256x128_S16x128_1_0_0_1_n_n.contr.Idx) :
    (dot_S16x256_S256x128_S16x128_1_0_0_1_n_n.rhsIdx i q 0).val = (q ⟨0, by decide⟩).val :=
  dot_S16x256_S256x128_S16x128_1_0_0_1_n_n.rhsIdx_val_of_single rfl i q
theorem mm_rhs1 (i : S16x128.Idx) (q : dot_S16x256_S256x128_S16x128_1_0_0_1_n_n.contr.Idx) :
    (dot_S16x256_S256x128_S16x128_1_0_0_1_n_n.rhsIdx i q 1).val = (i 1).val := by
  unfold DotDims.rhsIdx
  rw [dif_neg (show ¬(1 : Fin S256x128.rank) ∈ dot_S16x256_S256x128_S16x128_1_0_0_1_n_n.rhsBatch by decide),
    dif_pos (show (1 : Fin S256x128.rank) ∈ dot_S16x256_S256x128_S16x128_1_0_0_1_n_n.rhsNonContracting by decide)]
  rfl

theorem matmul_at (y : FVec Ideal S16x256 .f32) (s : FVec Ideal S256x128 .f32) (p : Fin 16) (o : Fin 128) :
    matmul dot_S16x256_S256x128_S16x128_1_0_0_1_n_n none y s (constant (F := Ideal) S16x128 .f32 0x00000000#32) (ix2 p o)
      = ∑ k : Fin 256, y (ix2 p k) * s (ix2 k o) := by
  simp only [matmul]
  rw [Ideal.matmul_constant_zero_apply,
    ← Equiv.sum_comp (contrEquiv1 dot_S16x256_S256x128_S16x128_1_0_0_1_n_n 256 rfl rfl).symm]
  refine Finset.sum_congr rfl fun k _ => ?_
  have hk := contrEquiv1_symm_val dot_S16x256_S256x128_S16x128_1_0_0_1_n_n 256 rfl rfl k
  have el : dot_S16x256_S256x128_S16x128_1_0_0_1_n_n.lhsIdx (ix2 p o)
      ((contrEquiv1 dot_S16x256_S256x128_S16x128_1_0_0_1_n_n 256 rfl rfl).symm k) = ix2 p k := funext fun a => Fin.ext (by
    match a with
    | ⟨0, _⟩ => exact mm_lhs0 _ _
    | ⟨1, _⟩ => exact (mm_lhs1 _ _).trans hk)
  have er : dot_S16x256_S256x128_S16x128_1_0_0_1_n_n.rhsIdx (ix2 p o)
      ((contrEquiv1 dot_S16x256_S256x128_S16x128_1_0_0_1_n_n 256 rfl rfl).symm k) = ix2 k o := funext fun a => Fin.ext (by
    match a with
    | ⟨0, _⟩ => exact (mm_rhs0 _ _).trans hk
    | ⟨1, _⟩ => exact mm_rhs1 _ _)
  rw [el, er]

/-- One channel's contribution at (p, o): the block's embeddings in channel `e` against slab `e`. -/
theorem channel_at (xb : FVec Ideal S16x256x1000 .f32) (w : FVec Ideal S3x1000 .f32) (w2 : FVec Ideal S3x256x128 .f32)
    (e : Nat) (he : e < 3)
    (hs : S3x1000.Slices ![e, 0] S1x1000) (h1 : S1x1000.ShapeCasts S1000) (h2 : S1000.ShapeCasts S1x1x1000)
    (h3 : S1x1x1000.Broadcasts S16x256x1000) (h : S16x256x1000.Reduces [2] S16x256) (hφ : FKind.Formats .f32)
    (hacc : (0x00000000#32 : BitVec (FTy.f32).bits) = FKind.add.neutral .f32 hφ)
    (h0 : S3x256x128.ShapeCasts S3x256x128) (hs' : S3x256x128.Slices ![e, 0, 0] S1x256x128) (hc : S1x256x128.ShapeCasts S256x128)
    (p : Fin 16) (o : Fin 128) :
    matmul dot_S16x256_S256x128_S16x128_1_0_0_1_n_n none
        (multiReduction .add [2] S16x256
          (mulf xb (broadcastTo S16x256x1000 (shapeCast S1x1x1000 (shapeCast S1000 (extractStridedSlice S1x1000 ![e, 0] w hs) h1) h2) h3))
          0x00000000#32 h hφ hacc)
        (shapeCast S256x128 (extractStridedSlice S1x256x128 ![e, 0, 0] (shapeCast S3x256x128 w2 h0) hs') hc)
        (constant (F := Ideal) S16x128 .f32 0x00000000#32) (ix2 p o)
      = ∑ k : Fin 256, (∑ l : Fin 1000, xb (ix3 p k l) * w (ix2 ⟨e, he⟩ l)) * w2 (ix3 ⟨e, he⟩ k o) := by
  refine (matmul_at _ _ p o).trans (Finset.sum_congr rfl fun k _ => congrArg₂ (· * ·) ?_ ?_)
  · refine (lane_sum _ h hφ hacc p k).trans (Finset.sum_congr rfl fun l _ => ?_)
    rw [mulf_apply]
    exact congrArg (xb (ix3 p k l) * ·) (chan_row w e he hs h1 h2 h3 p k l)
  · exact slab_at w2 e he h0 hs' hc k o

/-- The body's result at (p, o) of its output block. -/
theorem body_at (xb : Vec Ideal S16x256x1000 .f32) (w : Vec Ideal S3x1000 .f32) (w2 : Vec Ideal S3x256x128 .f32)
    (bb : Vec Ideal S1x128 .f32) (p : Fin 16) (o : Fin 128) :
    k0_pay1 (F := Ideal) xb w w2 bb (ix2 p o)
      = (∑ e : Fin 3, ∑ k : Fin 256, (∑ l : Fin 1000, xb (ix3 p k l) * w (ix2 e l)) * w2 (ix3 e k o))
        + bb (ix2 (0 : Fin 1) o) := by
  unfold k0_pay1
  dsimp only
  rw [Fin.sum_univ_three]
  simp only [addf_apply, broadcast_apply]
  rw [show (Scalar.ofBits (F := Ideal) .f32 0x00000000#32 : EReal) = 0 from Ideal.ofBits_zero_f32, zero_add]
  refine congrArg₂ (· + ·) (congrArg₂ (· + ·) (congrArg₂ (· + ·) ?_ ?_) ?_) ?_
  · exact channel_at xb w w2 0 (by decide) _ _ _ _ _ _ _ _ _ _ p o
  · exact channel_at xb w w2 1 (by decide) _ _ _ _ _ _ _ _ _ _ p o
  · exact channel_at xb w w2 2 (by decide) _ _ _ _ _ _ _ _ _ _ p o
  · exact (broadcastTo_1b_ab_apply _ _ p o).trans (congrFun (shapeCast_self bb _) _)

/-- So, when the x block's row `p` is row `b` of the whole x, the W_emb block is W_emb, the re-laid weight at (e, k, o) is
    W_fc2(o, 3k + e) and the bias row is b_fc2, the body's result at (p, o) is the specification at (b, o). -/
theorem body_eq_outAt (X : S512x256x1000.Idx → EReal) (W : S3x1000.Idx → EReal) (WF : S128x768.Idx → EReal) (B : S128.Idx → EReal)
    (xb : Vec Ideal S16x256x1000 .f32) (w : Vec Ideal S3x1000 .f32) (w2 : Vec Ideal S3x256x128 .f32) (bb : Vec Ideal S1x128 .f32)
    (p : Fin 16) (o : Fin 128) (b : Fin 512)
    (hx : ∀ (k : Fin 256) (l : Fin 1000), xb (ix3 p k l) = X (ix3 b k l))
    (hw : ∀ (e : Fin 3) (l : Fin 1000), w (ix2 e l) = W (ix2 e l))
    (hw2 : ∀ (e : Fin 3) (k : Fin 256), w2 (ix3 e k o) = WF (ix2 o (col k e)))
    (hb : bb (ix2 (0 : Fin 1) o) = B (ix1 o)) :
    k0_pay1 (F := Ideal) xb w w2 bb (ix2 p o) = outAt X W WF B b o := by
  rw [body_at]
  unfold outAt emb
  refine congrArg₂ (· + ·) (Finset.sum_congr rfl fun e _ => Finset.sum_congr rfl fun k _ =>
    congrArg₂ (· * ·) (Finset.sum_congr rfl fun l _ => ?_) (hw2 e k)) hb
  rw [hx, hw]

end Cert.EmbedDense

end
-- ==== Proof.HostPrefix.lean ====
/-
  What the two host-prepared operands of the kernel hold when the kernel is launched.

  Before the launch the dense weight W_fc2 : [128, 768] is viewed as [128, 256, 3] (column j is kernel j / 3, channel
  j % 3) and its axes are reversed to [3, 256, 128]; the bias [128] is viewed as one row [1, 128]. So the re-laid weight
  at (e, k, o) is W_fc2(o, 3k + e), and the bias row at (0, o) is b_fc2(o).
-/
import proofs.«113658_j13022340841686_2_alg».proof.Proof.Gen.KernelIdeal.Frame
import proofs.«113658_j13022340841686_2_alg».proof.Proof.Spec
import Idealize.ShloMosaic.Lib.Pipeline.Value
import Idealize.ShloMosaic.Lib.ValueLayout
import Idealize.ShloMosaic.Lib.StableHlo.Run

noncomputable section

namespace Cert.EmbedDense

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The kernel's third operand as the host operations leave it: W_fc2 reshaped, then transposed. -/
theorem relaid_weight_term (c : Dev nD) :
    (V m c main_v1 : S3x256x128.Idx → EReal)
      = transpose S3x256x128 [2, 1, 0]
          (shapeCast S128x256x3 (m ((c : Thread nD τ).loc main_arg2) : S128x768.Idx → EReal) shapeCasts_S128x768_S128x256x3)
          transposes_S128x256x3_S3x256x128_2_1_0 := by
  dsimp only [V, hostOps0]
  after_results
  rfl

/-- The re-laid weight at (e, k, o) is W_fc2 at (o, 3k + e). -/
theorem relaid_weight_at (c : Dev nD) (e : Fin 3) (k : Fin 256) (o : Fin 128) :
    (V m c main_v1 : S3x256x128.Idx → EReal) (ix3 e k o)
      = (m ((c : Thread nD τ).loc main_arg2) : S128x768.Idx → EReal) (ix2 o (col k e)) := by
  rw [relaid_weight_term]
  refine (transpose_apply [2, 1, 0] _ transposes_S128x256x3_S3x256x128_2_1_0 (ix3 e k o) (ix3 o k e) fun b => ?_).trans ?_
  · match b with
    | ⟨0, _⟩ => rfl
    | ⟨1, _⟩ => rfl
    | ⟨2, _⟩ => rfl
  refine shapeCast_apply _ shapeCasts_S128x768_S128x256x3 (ix3 o k e) (ix2 o (col k e)) ?_
  rw [Shape.rowMajor_val_two, Shape.rowMajor_val_three]
  show o.val * 768 + (3 * k.val + e.val) = (o.val * 256 + k.val) * 3 + e.val
  omega

/-- The kernel's fourth operand as the host leaves it: the bias viewed as one row. -/
theorem bias_row_term (c : Dev nD) :
    (V m c main_v2 : S1x128.Idx → EReal)
      = shapeCast S1x128 (m ((c : Thread nD τ).loc main_arg3) : S128.Idx → EReal) shapeCasts_S128_S1x128 := by
  dsimp only [V, hostOps0]
  after_results
  rfl

/-- The bias row at (0, o) is b_fc2 at o. -/
theorem bias_row_at (c : Dev nD) (o : Fin 128) :
    (V m c main_v2 : S1x128.Idx → EReal) (ix2 (0 : Fin 1) o)
      = (m ((c : Thread nD τ).loc main_arg3) : S128.Idx → EReal) (ix1 o) := by
  rw [bias_row_term]
  exact shapeCast_a_1a_apply _ shapeCasts_S128_S1x128 (0 : Fin 1) o

end Cert.EmbedDense

end
-- ==== Proof.Blocks.lean ====
/-
  From the blocks to the whole result array.

  The grid has 32 points; point t works on samples 16t … 16t + 15: it reads that block of x, all of W_emb, the whole
  re-laid dense weight and the bias row, and writes rows 16t … 16t + 15 of the [512, 128] result. So what point t writes
  back is block t of the specification `out` of the argument arrays, the 32 blocks cover every row (row r is in block
  r / 16), and after the run the result array is `out`.
-/
import proofs.«113658_j13022340841686_2_alg».proof.Proof.Gen.KernelIdeal.Value
import proofs.«113658_j13022340841686_2_alg».proof.Proof.BodyAt
import proofs.«113658_j13022340841686_2_alg».proof.Proof.HostPrefix
import Idealize.ShloMosaic.Lib.Pipeline.Value
import Idealize.ShloMosaic.Lib.Tactic

noncomputable section

namespace Cert.EmbedDense

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Two functions of a rank-2 index agree when they agree at every pair of coordinates. -/
theorem ext_ix2 {n0 n1 : Nat} {α : Type} {f g : (⟨2, ![n0, n1]⟩ : Shape).Idx → α}
    (h : ∀ (a : Fin n0) (b : Fin n1), f (ix2 a b) = g (ix2 a b)) : f = g :=
  funext fun j => by rw [eq_ix2 j]; exact h _ _

theorem point_lt (t : Fin cfg0.N) : t.val < 32 := Nat.lt_of_lt_of_eq t.isLt N_0

/-- The block indices at grid point `t`: the x block and the result block move with `t` along the sample axis; the other
    three operands are whole arrays at block index zero. Decided over the 32 points. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the x block at point `t` is row 16t + p of x. -/
theorem x_block (c : Dev nD) (t : Fin cfg0.N) (p : Fin 16) (k : Fin 256) (l : Fin 1000) (b : Fin 512)
    (hb : b.val = 16 * t.val + p.val) :
    (iblk m c 0 t : Vec Ideal S16x256x1000 .f32) (ix3 p k l)
      = (m ((c : Thread nD τ).loc main_arg0) : S512x256x1000.Idx → EReal) (ix3 b k l) := by
  obtain ⟨e0, e1, e2, -⟩ := block_index t
  unfold iblk
  rw [View.read_apply]
  show V m c main_arg0 (((cfg0.win 0).blk t).view.emb (ix3 p k l)) = _
  rw [V_main_arg0]
  refine congrArg (m ((c : Thread nD τ).loc main_arg0) : S512x256x1000.Idx → EReal) (funext fun a => Fin.ext ?_)
  match a with
  | ⟨0, _⟩ => show win0_0.index t (0 : Fin 3) * 16 + 1 * p.val = b.val; omega
  | ⟨1, _⟩ => show win0_0.index t (1 : Fin 3) * 256 + 1 * k.val = k.val; omega
  | ⟨2, _⟩ => show win0_0.index t (2 : Fin 3) * 1000 + 1 * l.val = l.val; omega

/-- The W_emb block at every point is W_emb. -/
theorem w_block (c : Dev nD) (t : Fin cfg0.N) (e : Fin 3) (l : Fin 1000) :
    (iblk m c 1 t : Vec Ideal S3x1000 .f32) (ix2 e l)
      = (m ((c : Thread nD τ).loc main_arg1) : S3x1000.Idx → EReal) (ix2 e l) := by
  obtain ⟨-, -, -, e0, e1, -⟩ := block_index t
  unfold iblk
  rw [View.read_apply]
  show V m c main_arg1 (((cfg0.win 1).blk t).view.emb (ix2 e l)) = _
  rw [V_main_arg1]
  refine congrArg (m ((c : Thread nD τ).loc main_arg1) : S3x1000.Idx → EReal) (funext fun a => Fin.ext ?_)
  match a with
  | ⟨0, _⟩ => show win0_1.index t (0 : Fin 2) * 3 + 1 * e.val = e.val; omega
  | ⟨1, _⟩ => show win0_1.index t (1 : Fin 2) * 1000 + 1 * l.val = l.val; omega

/-- The re-laid weight block at every point, at (e, k, o), is W_fc2(o, 3k + e). -/
theorem w2_block (c : Dev nD) (t : Fin cfg0.N) (e : Fin 3) (k : Fin 256) (o : Fin 128) :
    (iblk m c 2 t : Vec Ideal S3x256x128 .f32) (ix3 e k o)
      = (m ((c : Thread nD τ).loc main_arg2) : S128x768.Idx → EReal) (ix2 o (col k e)) := by
  obtain ⟨-, -, -, -, -, e0, e1, e2, -⟩ := block_index t
  unfold iblk
  rw [View.read_apply]
  show (V m c main_v1 : S3x256x128.Idx → EReal) (((cfg0.win 2).blk t).view.emb (ix3 e k o)) = _
  refine (congrArg (V m c main_v1 : S3x256x128.Idx → EReal) (funext fun a => Fin.ext ?_)).trans (relaid_weight_at m c e k o)
  match a with
  | ⟨0, _⟩ => show win0_2.index t (0 : Fin 3) * 3 + 1 * e.val = e.val; omega
  | ⟨1, _⟩ => show win0_2.index t (1 : Fin 3) * 256 + 1 * k.val = k.val; omega
  | ⟨2, _⟩ => show win0_2.index t (2 : Fin 3) * 128 + 1 * o.val = o.val; omega

/-- The bias block at every point, at (0, o), is b_fc2(o). -/
theorem bias_block (c : Dev nD) (t : Fin cfg0.N) (o : Fin 128) :
    (iblk m c 3 t : Vec Ideal S1x128 .f32) (ix2 (0 : Fin 1) o)
      = (m ((c : Thread nD τ).loc main_arg3) : S128.Idx → EReal) (ix1 o) := by
  obtain ⟨-, -, -, -, -, -, -, -, e0, e1, -⟩ := block_index t
  unfold iblk
  rw [View.read_apply]
  show (V m c main_v2 : S1x128.Idx → EReal) (((cfg0.win 3).blk t).view.emb (ix2 (0 : Fin 1) o)) = _
  refine (congrArg (V m c main_v2 : S1x128.Idx → EReal) (funext fun a => Fin.ext ?_)).trans (bias_row_at m c o)
  match a with
  | ⟨0, _⟩ => show win0_3.index t (0 : Fin 2) * 1 + 1 * 0 = 0; omega
  | ⟨1, _⟩ => show win0_3.index t (1 : Fin 2) * 128 + 1 * o.val = o.val; omega

/-- The specification of the four argument arrays on core `c`. -/
abbrev result (c : Dev nD) : S512x128.Idx → EReal :=
  out (m ((c : Thread nD τ).loc main_arg0)) (m ((c : Thread nD τ).loc main_arg1)) (m ((c : Thread nD τ).loc main_arg2))
    (m ((c : Thread nD τ).loc main_arg3))

/-- What point `t` writes back is block `t` of the specification. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zeros2]
  simp only [View.ld_unit_zero (S := S16x256x1000) zeros3, View.ld_unit_zero (S := S3x1000) zeros2,
    View.ld_unit_zero (S := S3x256x128) zeros3, View.ld_unit_zero (S := S1x128) zeros2]
  obtain ⟨-, -, -, -, -, -, -, -, -, -, e0, e1⟩ := block_index t
  have ht := point_lt t
  refine ext_ix2 fun p o => ?_
  show k0_pay1 (F := Ideal) (iblk m c 0 t) (iblk m c 1 t) (iblk m c 2 t) (iblk m c 3 t) (ix2 p o)
    = result m c (((cfg0.win 4).blk t).view.emb (ix2 p o))
  have hemb : ((cfg0.win 4).blk t).view.emb (ix2 p o) = ix2 (⟨16 * t.val + p.val, by omega⟩ : Fin 512) o :=
    funext fun a => Fin.ext (by
      match a with
      | ⟨0, _⟩ => show win0_4.index t (0 : Fin 2) * 16 + 1 * p.val = 16 * t.val + p.val; omega
      | ⟨1, _⟩ => show win0_4.index t (1 : Fin 2) * 128 + 1 * o.val = o.val; omega)
  rw [hemb]
  show _ = outAt _ _ _ _ (⟨16 * t.val + p.val, by omega⟩ : Fin 512) o
  exact body_eq_outAt _ _ _ _ _ _ _ _ p o _ (fun k l => x_block m c t p k l _ rfl) (fun e l => w_block m c t e l)
    (fun e k => w2_block m c t e k o) (bias_block m c t o)

/-- An index of the result array is in point `t`'s block iff each coordinate is in the block's range on its axis. -/
theorem mem_block (t : Fin cfg0.N) (i : S512x128.Idx) :
    i ∈ ((cfg0.win 4).blk t).view.set ↔ ∀ a : Fin 2, win0_4.index t a * S16x128.size a ≤ (i a).val
      ∧ (i a).val < win0_4.index t a * S16x128.size a + S16x128.size a := by
  show i ∈ ((View.whole main_v3).slice (win0_4.rect t)).set ↔ _
  rw [View.set_slice_whole, Rect.mem_set_unit]
  exact Iff.rfl

/-- Every index of the result array is in the block of the point that owns its row: row r belongs to point r / 16. -/
theorem covered (i : S512x128.Idx) :
    ∃ t : Fin cfg0.N, (cfg0.win 4).flush t = true ∧ i ∈ ((cfg0.win 4).blk t).view.set := by
  have hi0 : (i 0).val < 512 := (i 0).isLt
  have hi1 : (i 1).val < 128 := (i 1).isLt
  obtain ⟨t, htv⟩ : ∃ t : Fin cfg0.N, t.val = (i 0).val / 16 :=
    ⟨⟨(i 0).val / 16, by rw [show cfg0.N = 32 from N_0]; omega⟩, rfl⟩
  obtain ⟨-, -, -, -, -, -, -, -, -, -, e0, e1⟩ := block_index t
  refine ⟨t, flush0_4 t, ?_⟩
  rw [mem_block]
  intro a
  match a with
  | ⟨0, _⟩ =>
    show win0_4.index t (0 : Fin 2) * 16 ≤ (i 0).val ∧ (i 0).val < win0_4.index t (0 : Fin 2) * 16 + 16
    omega
  | ⟨1, _⟩ =>
    show win0_4.index t (1 : Fin 2) * 128 ≤ (i 1).val ∧ (i 1).val < win0_4.index t (1 : Fin 2) * 128 + 128
    omega

/-- After the run the result array is the specification of the argument arrays. -/
theorem final (c : Dev nD) : (dats m 0 c).arrAt 4 cfg0.N = result m c :=
  (dats m 0 c).arrAt_eq_of_cover 4 (result m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.EmbedDense

end
-- ==== Proof.lean ====
/-
  The kernel and its reference compute one function of their four arguments at the extended reals.

  Both embed every (sample, kernel) row of x : [512, 256, 1000] into three channels by W_emb : [3, 1000], lay a sample's
  256 × 3 embeddings out kernel-major, and apply a dense layer W_fc2 : [128, 768] with bias b_fc2 : [128]:
      out(b, o) = Σ_{j < 768} (Σ_l x(b, j / 3, l) · W_emb(j % 3, l)) · W_fc2(o, j) + b_fc2(o).
  The reference forms the 768-long row and contracts it once; the kernel, per block of 16 samples, contracts the 256
  kernels channel by channel against the re-laid weight W_fc2(o, 3k + e) and adds the three channel results. The two
  sums differ only in grouping (Spec.lean `sum_cols`), so they agree on every extended real and the inputs' finiteness
  is never used. Spec.lean states `out`; RefIsSpec.lean reads the reference's operations as `out`; BodyAt.lean reads the
  kernel body at one entry of its block; HostPrefix.lean reads the re-laid weight and the bias row; Blocks.lean puts the
  32 blocks together into the whole result array. The kernel's idealization rewrote nothing, so there is nothing to
  preserve; the three frames are the generated ones (the reference's is its run with the result dropped).
-/
import proofs.«113658_j13022340841686_2_alg».proof.Defs
import proofs.«113658_j13022340841686_2_alg».proof.Proof.Gen.Kernel
import proofs.«113658_j13022340841686_2_alg».proof.Proof.Gen.Kernel.Skeleton
import proofs.«113658_j13022340841686_2_alg».proof.Proof.Gen.Kernel.Launch
import proofs.«113658_j13022340841686_2_alg».proof.Proof.Gen.Kernel.Points
import proofs.«113658_j13022340841686_2_alg».proof.Proof.Gen.Kernel.Frame
import proofs.«113658_j13022340841686_2_alg».proof.Proof.Gen.KernelIdeal
import proofs.«113658_j13022340841686_2_alg».proof.Proof.Gen.KernelIdeal.Skeleton
import proofs.«113658_j13022340841686_2_alg».proof.Proof.Gen.KernelIdeal.Launch
import proofs.«113658_j13022340841686_2_alg».proof.Proof.Gen.KernelIdeal.Points
import proofs.«113658_j13022340841686_2_alg».proof.Proof.Gen.KernelIdeal.Frame
import proofs.«113658_j13022340841686_2_alg».proof.Proof.Gen.ReferenceIdeal
import proofs.«113658_j13022340841686_2_alg».proof.Proof.Gen.Pre_finite_inputs
import proofs.«113658_j13022340841686_2_alg».proof.Proof.Gen.KernelIdeal.Value
import proofs.«113658_j13022340841686_2_alg».proof.Proof.Gen.ReferenceIdeal.Run
import proofs.«113658_j13022340841686_2_alg».proof.Proof.Gen.ReferenceIdeal.Read
import proofs.«113658_j13022340841686_2_alg».proof.Proof.RefIsSpec
import proofs.«113658_j13022340841686_2_alg».proof.Proof.Blocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's run ends with its result array at `out` of its arguments (Blocks.lean), the reference's with its result
    at its operations' term, which is `out` of its own arguments (RefIsSpec.lean); the arguments agree. -/
theorem algebraic : Cert.algebraic_KernelIdeal_ReferenceIdeal := by
  intro m ρ m' ρ' _ hagree
  refine ⟨fun c => Cert.EmbedDense.result m c, Cert.EmbedDense.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.EmbedDense.reference_eq_out,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
